-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : FVec F S128x128 .f32) (main_arg2 : FVec F S128 .f32) (main_arg3 : FVec F S128x64 .f32) (main_arg4 : FVec F S64 .f32) (main_arg5 : IVec S1600000 32) (main_arg6 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_v13 main_v16
-- ==== Kernel.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1x128 : Shape := ⟨2, ![1, 128]⟩
abbrev S1x64 : Shape := ⟨2, ![1, 64]⟩
abbrev S1600000x128 : Shape := ⟨2, ![1600000, 128]⟩
abbrev S5000x128 : Shape := ⟨2, ![5000, 128]⟩
abbrev S5000x1 : Shape := ⟨2, ![5000, 1]⟩
abbrev S100000x64 : Shape := ⟨2, ![100000, 64]⟩
abbrev S5000x64 : Shape := ⟨2, ![5000, 64]⟩

abbrev nBuf : Space → Nat
  | .hbm => 50
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S1600000, .i32⟩
  | .hbm, ⟨6, _⟩ => ⟨S1600000, .i32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000x1, .f32⟩
  | .hbm, ⟨20, _⟩ => ⟨S1x128, .f32⟩
  | .hbm, ⟨21, _⟩ => ⟨S1x64, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x128, .f32⟩
  | .hbm, ⟨31, _⟩ => ⟨S_, .f32⟩
  | .hbm, ⟨32, _⟩ => ⟨S100000x128, .f32⟩
  | .hbm, ⟨33, _⟩ => ⟨S1600000x1, .i32⟩
  | .hbm, ⟨34, _⟩ => ⟨S100000x128, .f32⟩
  | .hbm, ⟨35, _⟩ => ⟨S100000x128, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x128, .f32⟩
  | .hbm, ⟨45, _⟩ => ⟨S_, .f32⟩
  | .hbm, ⟨46, _⟩ => ⟨S100000x128, .f32⟩
  | .hbm, ⟨47, _⟩ => ⟨S1600000x1, .i32⟩
  | .hbm, ⟨48, _⟩ => ⟨S100000x128, .f32⟩
  | .hbm, ⟨49, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x1, .f32⟩
  | .local _ .vmem, ⟨15, _⟩ => ⟨S5000x1, .f32⟩
  | .local _ .vmem, ⟨16, _⟩ => ⟨S128x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_5 : Ref sig .tc := ⟨.hbm, 36, rfl⟩
abbrev main_v22 : Ref sig .tc := ⟨.hbm, 37, rfl⟩
abbrev main_v23 : Ref sig .tc := ⟨.hbm, 38, rfl⟩
abbrev main_c_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_7 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  shapeCasts_S128_S1x128 : S128.ShapeCasts S1x128
  shapeCasts_S64_S1x64 : S64.ShapeCasts S1x64
  bcast_S_S100000x128 : S_.BroadcastsInDim S100000x128 (![] : Fin 0 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v20) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v31) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v10) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x64 : Shape := ⟨2, ![100000, 64]⟩
abbrev S1x64 : Shape := ⟨2, ![1, 64]⟩

abbrev nBuf : Space → Nat
  | .hbm => 64
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S1600000, .i32⟩
  | .hbm, ⟨6, _⟩ => ⟨S1600000, .i32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x128, .f32⟩
  | .hbm, ⟨28, _⟩ => ⟨S_, .f32⟩
  | .hbm, ⟨29, _⟩ => ⟨S100000x128, .f32⟩
  | .hbm, ⟨30, _⟩ => ⟨S1600000x1, .i32⟩
  | .hbm, ⟨31, _⟩ => ⟨S100000x128, .f32⟩
  | .hbm, ⟨32, _⟩ => ⟨S100000x128, .f32⟩
  | .hbm, ⟨33, _⟩ => ⟨S100000x1, .f32⟩
  | .hbm, ⟨34, _⟩ => ⟨S100000x128, .f32⟩
  | .hbm, ⟨35, _⟩ => ⟨S100000x128, .f32⟩
  | .hbm, ⟨36, _⟩ => ⟨S100000x128, .f32⟩
  | .hbm, ⟨37, _⟩ => ⟨S1x128, .f32⟩
  | .hbm, ⟨38, _⟩ => ⟨S100000x128, .f32⟩
  | .hbm, ⟨39, _⟩ => ⟨S100000x128, .f32⟩
  | .hbm, ⟨40, _⟩ => ⟨S_, .f32⟩
  | .hbm, ⟨41, _⟩ => ⟨S100000x128, .f32⟩
  | .hbm, ⟨42, _⟩ => ⟨S100000x128, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x128, .f32⟩
  | .hbm, ⟨52, _⟩ => ⟨S_, .f32⟩
  | .hbm, ⟨53, _⟩ => ⟨S100000x128, .f32⟩
  | .hbm, ⟨54, _⟩ => ⟨S1600000x1, .i32⟩
  | .hbm, ⟨55, _⟩ => ⟨S100000x128, .f32⟩
  | .hbm, ⟨56, _⟩ => ⟨S100000x128, .f32⟩
  | .hbm, ⟨57, _⟩ => ⟨S100000x1, .f32⟩
  | .hbm, ⟨58, _⟩ => ⟨S100000x128, .f32⟩
  | .hbm, ⟨59, _⟩ => ⟨S100000x128, .f32⟩
  | .hbm, ⟨60, _⟩ => ⟨S100000x64, .f32⟩
  | .hbm, ⟨61, _⟩ => ⟨S1x64, .f32⟩
  | .hbm, ⟨62, _⟩ => ⟨S100000x64, .f32⟩
  | .hbm, ⟨63, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_c : Ref sig .tc := ⟨.hbm, 19, rfl⟩
abbrev main_v8 : Ref sig .tc := ⟨.hbm, 20, rfl⟩
abbrev main_v9 : Ref sig .tc := ⟨.hbm, 21, rfl⟩
abbrev main_c_3 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_4 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_call0_cst : Ref sig .tc := ⟨.hbm, 40, rfl⟩
abbrev main_call0_v0 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_c_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelRun.lean ====
/-
  The kernel program's run with its result named.

  The program is four segments: the host operations before the first call, the first call, the host operations
  between the calls, the second call.  The buffer contents at the four boundaries are a fold through the program
  (`W1` … `W4` of the generated frame module): a host stretch applies its operations, a call leaves its result
  array at what its 20 write-backs leave and every other buffer as it was.  Run over those segments, every weakly
  fair execution terminates without a fault with every buffer the segments never scope at the last boundary's
  contents `W4`; read at the result buffer and at the seven arguments (which nothing writes) this is the statement
  below.  The value of `W4` at the result buffer is worked out in the module that imports this one.
-/
import proofs.«158828_j6296422056697_1_alg».proof.Proof.Gen.KernelIdeal.Frame

set_option maxRecDepth 16384

noncomputable section

namespace Cert.KernelIdeal.SageValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting, with the result buffer at the last
    boundary's contents and the arguments as launched. -/
theorem run_result : θ_run defs (onTc (τ := τ) (main (F := F))) ⟨m, fun _ => 0, ρ⟩ (fun r => ∀ c : Dev nD,
      r.2.mem ((c.tc : Thread nD τ).loc main_v32) = W4 m ρ c (Proc.devRef .tc main_v32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v32 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Cert.KernelIdeal.SageValue

end
-- ==== Proof.LibColumnBroadcast.lean ====
/-
  A column broadcast over many columns, read at an index: a `[a, 1]` array broadcast to `[a, b]` reads, at `(p, c)`, the
  operand's row `p` at its one column. (The companion of the library's row form `broadcastTo_1b_ab_apply`; extents general.)
-/
import Idealize.ShloMosaic.Lib.ValueLayout

namespace Idealize.ShloMosaic.ValueIdx

open Idealize.ShloMosaic

variable {α : Type}

/-- A `[a, 1]` array broadcast to `[a, b]` reads, at `(p, c)`, the operand at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KernelPayload.lean ====
/-
  What each kernel body stores, entry by entry.

  Both bodies compute, on a block of 5000 rows, the same expression: the two loaded row blocks are added, each row is
  scaled by the row's entry of the one-column block, the result is multiplied by the whole weight matrix (a product
  accumulated into zero, so just the sum over the shared axis), and the one-row bias block is added to every row.  The
  first body then clamps below at zero.  Narrowing a value to a shorter float format and back is the identity on the
  extended reals, and a cast to the same shape changes nothing, so these steps disappear.
-/
import proofs.«158828_j6296422056697_1_alg».proof.Proof.Gen.KernelIdeal.Skeleton
import proofs.«158828_j6296422056697_1_alg».proof.Proof.LibColumnBroadcast
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.SageValue

open Cert.KernelIdeal Cert.KernelIdeal.Gen Idealize.ShloMosaic Idealize.ShloMosaic.ValueIdx

theorem matmul_hidden_apply_lhs0 (j : S5000x128.Idx) (k : dot_S5000x128_S128x128_S5000x128_1_0_0_1_n_n.contr.Idx) : (dot_S5000x128_S128x128_S5000x128_1_0_0_1_n_n.lhsIdx j k 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem matmul_hidden_apply_lhs1 (j : S5000x128.Idx) (k : dot_S5000x128_S128x128_S5000x128_1_0_0_1_n_n.contr.Idx) : (dot_S5000x128_S128x128_S5000x128_1_0_0_1_n_n.lhsIdx j k 1).val = (k ⟨0, by decide⟩).val :=
  dot_S5000x128_S128x128_S5000x128_1_0_0_1_n_n.lhsIdx_val_of_single rfl j k
theorem matmul_hidden_apply_rhs0 (j : S5000x128.Idx) (k : dot_S5000x128_S128x128_S5000x128_1_0_0_1_n_n.contr.Idx) : (dot_S5000x128_S128x128_S5000x128_1_0_0_1_n_n.rhsIdx j k 0).val = (k ⟨0, by decide⟩).val :=
  dot_S5000x128_S128x128_S5000x128_1_0_0_1_n_n.rhsIdx_val_of_single rfl j k
theorem matmul_hidden_apply_rhs1 (j : S5000x128.Idx) (k : dot_S5000x128_S128x128_S5000x128_1_0_0_1_n_n.contr.Idx) : (dot_S5000x128_S128x128_S5000x128_1_0_0_1_n_n.rhsIdx j k 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The row-by-column product of a `[5000, 128]` block with a `[128, 128]` matrix into a zero accumulator: entry
    `(p, q)` is the sum over the shared axis `k` of the left factor at `(p, k)` times the right factor at `(k, q)`. -/
theorem matmul_hidden_apply (l : FVec Ideal S5000x128 .bf16) (r : FVec Ideal S128x128 .bf16) (p : Fin 5000) (q : Fin 128) :
    matmul dot_S5000x128_S128x128_S5000x128_1_0_0_1_n_n none l r (constant S5000x128 .f32 0x00000000#32) (ix2 p q)
      = ∑ k : Fin 128, l (ix2 p k) * r (ix2 k q) := by
  show FloatOps.matmul dot_S5000x128_S128x128_S5000x128_1_0_0_1_n_n none l r (constant S5000x128 .f32 0x00000000#32) (ix2 p q) = _
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact matmul_hidden_apply_lhs0 _ _
    | ⟨1, _⟩ => exact (matmul_hidden_apply_lhs1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (matmul_hidden_apply_rhs0 _ _).trans hk
    | ⟨1, _⟩ => exact matmul_hidden_apply_rhs1 _ _)
  rw [el, er]

theorem matmul_output_apply_lhs0 (j : S5000x64.Idx) (k : dot_S5000x128_S128x64_S5000x64_1_0_0_1_n_n.contr.Idx) : (dot_S5000x128_S128x64_S5000x64_1_0_0_1_n_n.lhsIdx j k 0).val = (j 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem matmul_output_apply_lhs1 (j : S5000x64.Idx) (k : dot_S5000x128_S128x64_S5000x64_1_0_0_1_n_n.contr.Idx) : (dot_S5000x128_S128x64_S5000x64_1_0_0_1_n_n.lhsIdx j k 1).val = (k ⟨0, by decide⟩).val :=
  dot_S5000x128_S128x64_S5000x64_1_0_0_1_n_n.lhsIdx_val_of_single rfl j k
theorem matmul_output_apply_rhs0 (j : S5000x64.Idx) (k : dot_S5000x128_S128x64_S5000x64_1_0_0_1_n_n.contr.Idx) : (dot_S5000x128_S128x64_S5000x64_1_0_0_1_n_n.rhsIdx j k 0).val = (k ⟨0, by decide⟩).val :=
  dot_S5000x128_S128x64_S5000x64_1_0_0_1_n_n.rhsIdx_val_of_single rfl j k
theorem matmul_output_apply_rhs1 (j : S5000x64.Idx) (k : dot_S5000x128_S128x64_S5000x64_1_0_0_1_n_n.contr.Idx) : (dot_S5000x128_S128x64_S5000x64_1_0_0_1_n_n.rhsIdx j k 1).val = (j 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The row-by-column product of a `[5000, 128]` block with a `[128, 64]` matrix into a zero accumulator: entry
    `(p, q)` is the sum over the shared axis `k` of the left factor at `(p, k)` times the right factor at `(k, q)`. -/
theorem matmul_output_apply (l : FVec Ideal S5000x128 .bf16) (r : FVec Ideal S128x64 .bf16) (p : Fin 5000) (q : Fin 64) :
    matmul dot_S5000x128_S128x64_S5000x64_1_0_0_1_n_n none l r (constant S5000x64 .f32 0x00000000#32) (ix2 p q)
      = ∑ k : Fin 128, l (ix2 p k) * r (ix2 k q) := by
  show FloatOps.matmul dot_S5000x128_S128x64_S5000x64_1_0_0_1_n_n none l r (constant S5000x64 .f32 0x00000000#32) (ix2 p q) = _
  rw [Ideal.matmul_constant_zero_apply, ← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p q) ((contrEquiv1 dot_S5000x128_S128x64_S5000x64_1_0_0_1_n_n 128 rfl rfl).symm k) = ix2 p k := funext fun a => Fin.ext (by
    match a with
    | ⟨0, _⟩ => exact matmul_output_apply_lhs0 _ _
    | ⟨1, _⟩ => exact (matmul_output_apply_lhs1 _ _).trans hk)
  have er : dot_S5000x128_S128x64_S5000x64_1_0_0_1_n_n.rhsIdx (ix2 p q) ((contrEquiv1 dot_S5000x128_S128x64_S5000x64_1_0_0_1_n_n 128 rfl rfl).symm k) = ix2 k q := funext fun a => Fin.ext (by
    match a with
    | ⟨0, _⟩ => exact (matmul_output_apply_rhs0 _ _).trans hk
    | ⟨1, _⟩ => exact matmul_output_apply_rhs1 _ _)
  rw [el, er]

/-- The first body's stored block at `(p, q)`: the clamped layer entry of the loaded blocks. -/
theorem hiddenBlock_apply (x0 x1 : Vec Ideal S5000x128 .f32) (x2 : Vec Ideal S5000x1 .f32) (x3 : Vec Ideal S128x128 .f32)
    (x4 : Vec Ideal S1x128 .f32) (p : Fin 5000) (q : Fin 128) :
    k0_pay1 (F := Ideal) x0 x1 x2 x3 x4 (ix2 p q)
      = max ((∑ k : Fin 128, ((x0 (ix2 p k) + x1 (ix2 p k)) * x2 (ix2 p (0 : Fin 1))) * x3 (ix2 k q)) + x4 (ix2 (0 : Fin 1) q))
          (Ideal.ofBits .f32 0x00000000#32) := by
  unfold k0_pay1
  simp only [shapeCast_self]
  rw [maximumf_apply, addf_apply, matmul_hidden_apply, broadcastTo_1b_ab_apply, broadcast_apply]
  simp only [truncf_apply, mulf_apply, addf_apply, broadcastTo_a1_ab_apply]
  rfl

/-- The second body's stored block at `(p, q)`: the layer entry of the loaded blocks, not clamped. -/
theorem outputBlock_apply (x0 x1 : Vec Ideal S5000x128 .f32) (x2 : Vec Ideal S5000x1 .f32) (x3 : Vec Ideal S128x64 .f32)
    (x4 : Vec Ideal S1x64 .f32) (p : Fin 5000) (q : Fin 64) :
    k1_pay1 (F := Ideal) x0 x1 x2 x3 x4 (ix2 p q)
      = (∑ k : Fin 128, ((x0 (ix2 p k) + x1 (ix2 p k)) * x2 (ix2 p (0 : Fin 1))) * x3 (ix2 k q)) + x4 (ix2 (0 : Fin 1) q) := by
  unfold k1_pay1
  simp only [shapeCast_self]
  rw [addf_apply, matmul_output_apply, broadcastTo_1b_ab_apply]
  simp only [truncf_apply, mulf_apply, addf_apply, broadcastTo_a1_ab_apply]

end Cert.KernelIdeal.SageValue

end
-- ==== Proof.LayerSpec.lean ====
/-
  One graph-convolution layer, entry by entry, over the extended reals.

  A node `r` first adds its own feature row `h r` to the sum `agg r` of its in-neighbours' rows, scales the
  result by its normalizer `inv r` (one over its in-degree plus one), multiplies the scaled row by the weight
  matrix `W` and adds the bias `b`:
      cell r q = Σ_k ((agg (r, k) + h (r, k)) · inv r) · W (k, q) + b q.
  The hidden layer clamps each entry below at zero; the output layer does not.  The sum runs over the 128
  input features in the fixed order of `Fin 128`; no law of the extended reals beyond the definition of the
  operations is used to relate the two programs, so infinite inputs are harmless here.
-/
import Idealize.ShloMosaic.PureOps.Ideal
import Idealize.ShloMosaic.Lib.ValueIdx

noncomputable section

namespace Cert.Sage

open Idealize.ShloMosaic Idealize.ShloMosaic.ValueIdx

/-- Entry `(r, q)` of one layer before any clamping: row `r` of `(agg + h) · inv`, dotted with column `q` of the
    weights, plus the bias at `q`. -/
def cell {D : ℕ} (agg h : (⟨2, ![100000, 128]⟩ : Shape).Idx → EReal) (inv : (⟨1, ![100000]⟩ : Shape).Idx → EReal)
    (W : (⟨2, ![128, D]⟩ : Shape).Idx → EReal) (b : (⟨1, ![D]⟩ : Shape).Idx → EReal) (r : Fin 100000) (q : Fin D) : EReal :=
  (∑ k : Fin 128, ((agg (ix2 r k) + h (ix2 r k)) * inv (ix1 r)) * W (ix2 k q)) + b (ix1 q)

/-- The hidden layer: every entry of the layer clamped below at zero. -/
def hidden (agg h : (⟨2, ![100000, 128]⟩ : Shape).Idx → EReal) (inv : (⟨1, ![100000]⟩ : Shape).Idx → EReal)
    (W : (⟨2, ![128, 128]⟩ : Shape).Idx → EReal) (b : (⟨1, ![128]⟩ : Shape).Idx → EReal) :
    (⟨2, ![100000, 128]⟩ : Shape).Idx → EReal :=
  fun i => max (cell agg h inv W b ⟨(i 0).val, idx2_lt0 i⟩ ⟨(i 1).val, idx2_lt1 i⟩) (Ideal.ofBits .f32 0x00000000#32)

/-- The output layer: the layer's entries as they are. -/
def output (agg h : (⟨2, ![100000, 128]⟩ : Shape).Idx → EReal) (inv : (⟨1, ![100000]⟩ : Shape).Idx → EReal)
    (W : (⟨2, ![128, 64]⟩ : Shape).Idx → EReal) (b : (⟨1, ![64]⟩ : Shape).Idx → EReal) :
    (⟨2, ![100000, 64]⟩ : Shape).Idx → EReal :=
  fun i => cell agg h inv W b ⟨(i 0).val, idx2_lt0 i⟩ ⟨(i 1).val, idx2_lt1 i⟩

/-- A one-column array read as a vector: entry `r` is the array's `(r, 0)`. -/
def colVec {n : ℕ} (x : (⟨2, ![n, 1]⟩ : Shape).Idx → EReal) : (⟨1, ![n]⟩ : Shape).Idx → EReal :=
  fun j => x (ix2 (⟨(j 0).val, (j 0).isLt⟩ : Fin n) (0 : Fin 1))

/-- A one-row array read as a vector: entry `q` is the array's `(0, q)`. -/
def rowVec {n : ℕ} (x : (⟨2, ![1, n]⟩ : Shape).Idx → EReal) : (⟨1, ![n]⟩ : Shape).Idx → EReal :=
  fun j => x (ix2 (0 : Fin 1) (⟨(j 0).val, (j 0).isLt⟩ : Fin n))

theorem colVec_ix1 {n : ℕ} (x : (⟨2, ![n, 1]⟩ : Shape).Idx → EReal) (r : Fin n) : colVec x (ix1 r) = x (ix2 r (0 : Fin 1)) := rfl

theorem rowVec_ix1 {n : ℕ} (x : (⟨2, ![1, n]⟩ : Shape).Idx → EReal) (q : Fin n) : rowVec x (ix1 q) = x (ix2 (0 : Fin 1) q) := rfl

theorem hidden_ix2 (agg h : (⟨2, ![100000, 128]⟩ : Shape).Idx → EReal) (inv : (⟨1, ![100000]⟩ : Shape).Idx → EReal)
    (W : (⟨2, ![128, 128]⟩ : Shape).Idx → EReal) (b : (⟨1, ![128]⟩ : Shape).Idx → EReal) (r : Fin 100000) (q : Fin 128) :
    hidden agg h inv W b (ix2 r q) = max (cell agg h inv W b r q) (Ideal.ofBits .f32 0x00000000#32) := rfl

theorem output_ix2 (agg h : (⟨2, ![100000, 128]⟩ : Shape).Idx → EReal) (inv : (⟨1, ![100000]⟩ : Shape).Idx → EReal)
    (W : (⟨2, ![128, 64]⟩ : Shape).Idx → EReal) (b : (⟨1, ![64]⟩ : Shape).Idx → EReal) (r : Fin 100000) (q : Fin 64) :
    output agg h inv W b (ix2 r q) = cell agg h inv W b r q := rfl

end Cert.Sage

end
-- ==== Proof.HiddenArray.lean ====
/-
  The first call's result array: the hidden layer of the arrays the call finds.

  The grid has 20 points; point `t` works on rows `5000·t … 5000·t + 4999`.  Its three row-blocked inputs (the neighbour
  sums, the node features, the one-column normalizer) are those rows of their arrays, the weight matrix and the one-row
  bias are taken whole at every point, and the block it writes back is those rows of the result.  So block `t` of what is
  written is block `t` of ONE function of the arrays as the call finds them — the clamped layer entry —, the 20 blocks cover
  every row, and the result array ends holding that function.  Everything is stated at arbitrary entry contents `V`.
-/
import proofs.«158828_j6296422056697_1_alg».proof.Proof.Gen.KernelIdeal.Frame
import proofs.«158828_j6296422056697_1_alg».proof.Proof.KernelPayload
import proofs.«158828_j6296422056697_1_alg».proof.Proof.LayerSpec
import Idealize.ShloMosaic.Lib.Pipeline.Value

set_option maxRecDepth 16384

noncomputable section

namespace Cert.KernelIdeal.SageValue

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zeroOffsets0 : (![0, 0] : Fin 2 → Nat) = fun _ => 0 := funext fun a => by fin_cases a <;> rfl

/-- The printed index maps over the grid: a row-blocked window's block index is `(t, 0)`, a whole window's `(0, 0)`. -/
theorem blockIndex0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The function the result array ends holding, of the arrays as the call finds them. -/
def hiddenOf (c : Dev nD) : S100000x128.Idx → EReal :=
  Cert.Sage.hidden (V c main_v20) (V c main_arg0) (Cert.Sage.colVec (V c main_v8)) (V c main_arg1) (Cert.Sage.rowVec (V c main_v9))

/-- Row `p` of point `t`'s block of the neighbour sums is row `5000·t + p` of the array. -/
theorem aggBlock0_apply (c : Dev nD) (t : Fin cfg0.N) (p : Fin 5000) (k : Fin 128) (r : Fin 100000)
    (hr : r.val = 5000 * t.val + p.val) :
    (iblk0 V c 0 t : Vec Ideal S5000x128 .f32) (ix2 p k) = (V c main_v20 : S100000x128.Idx → EReal) (ix2 r k) := by
  obtain ⟨e0, e1, -⟩ := blockIndex0 t
  unfold iblk0
  rw [View.read_apply]
  show (V c main_v20 : S100000x128.Idx → EReal) _ = (V c main_v20 : S100000x128.Idx → EReal) _
  refine congrArg (V c main_v20 : S100000x128.Idx → EReal) (funext fun a => Fin.ext ?_)
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- The same for the node features. -/
theorem featBlock0_apply (c : Dev nD) (t : Fin cfg0.N) (p : Fin 5000) (k : Fin 128) (r : Fin 100000)
    (hr : r.val = 5000 * t.val + p.val) :
    (iblk0 V c 1 t : Vec Ideal S5000x128 .f32) (ix2 p k) = (V c main_arg0 : S100000x128.Idx → EReal) (ix2 r k) := by
  obtain ⟨-, -, e0, e1, -⟩ := blockIndex0 t
  unfold iblk0
  rw [View.read_apply]
  show (V c main_arg0 : S100000x128.Idx → EReal) _ = (V c main_arg0 : S100000x128.Idx → EReal) _
  refine congrArg (V c main_arg0 : S100000x128.Idx → EReal) (funext fun a => Fin.ext ?_)
  match a with
  | ⟨0, _⟩ => show win0_1.index t (0 : Fin 2) * 5000 + 1 * p.val = r.val; rw [e0, hr]; omega
  | ⟨1, _⟩ => show win0_1.index t (1 : Fin 2) * 128 + 1 * k.val = k.val; rw [e1]; omega

/-- The same for the one-column normalizer. -/
theorem invBlock0_apply (c : Dev nD) (t : Fin cfg0.N) (p : Fin 5000) (r : Fin 100000)
    (hr : r.val = 5000 * t.val + p.val) :
    (iblk0 V c 2 t : Vec Ideal S5000x1 .f32) (ix2 p (0 : Fin 1)) = (V c main_v8 : S100000x1.Idx → EReal) (ix2 r (0 : Fin 1)) := by
  obtain ⟨-, -, -, -, e0, e1, -⟩ := blockIndex0 t
  unfold iblk0
  rw [View.read_apply]
  show (V c main_v8 : S100000x1.Idx → EReal) _ = (V c main_v8 : S100000x1.Idx → EReal) _
  refine congrArg (V c main_v8 : S100000x1.Idx → EReal) (funext fun a => Fin.ext ?_)
  match a with
  | ⟨0, _⟩ => show win0_2.index t (0 : Fin 2) * 5000 + 1 * p.val = r.val; rw [e0, hr]; omega
  | ⟨1, _⟩ => show win0_2.index t (1 : Fin 2) * 1 + 1 * (0 : Fin 1).val = (0 : Fin 1).val; rw [e1]; rfl

/-- The weight matrix's block is the whole matrix at every point. -/
theorem weightBlock0_apply (c : Dev nD) (t : Fin cfg0.N) (k : Fin 128) (q : Fin 128) :
    (iblk0 V c 3 t : Vec Ideal S128x128 .f32) (ix2 k q) = (V c main_arg1 : S128x128.Idx → EReal) (ix2 k q) := by
  obtain ⟨-, -, -, -, -, -, e0, e1, -⟩ := blockIndex0 t
  unfold iblk0
  rw [View.read_apply]
  show (V c main_arg1 : S128x128.Idx → EReal) _ = (V c main_arg1 : S128x128.Idx → EReal) _
  refine congrArg (V c main_arg1 : S128x128.Idx → EReal) (funext fun a => Fin.ext ?_)
  match a with
  | ⟨0, _⟩ => show win0_3.index t (0 : Fin 2) * 128 + 1 * k.val = k.val; rw [e0]; omega
  | ⟨1, _⟩ => show win0_3.index t (1 : Fin 2) * 128 + 1 * q.val = q.val; rw [e1]; omega

/-- The one-row bias's block is the whole row at every point. -/
theorem biasBlock0_apply (c : Dev nD) (t : Fin cfg0.N) (q : Fin 128) :
    (iblk0 V c 4 t : Vec Ideal S1x128 .f32) (ix2 (0 : Fin 1) q) = (V c main_v9 : S1x128.Idx → EReal) (ix2 (0 : Fin 1) q) := by
  obtain ⟨-, -, -, -, -, -, -, -, e0, e1, -⟩ := blockIndex0 t
  unfold iblk0
  rw [View.read_apply]
  show (V c main_v9 : S1x128.Idx → EReal) _ = (V c main_v9 : S1x128.Idx → EReal) _
  refine congrArg (V c main_v9 : S1x128.Idx → EReal) (funext fun a => Fin.ext ?_)
  match a with
  | ⟨0, _⟩ => show win0_4.index t (0 : Fin 2) * 1 + 1 * (0 : Fin 1).val = (0 : Fin 1).val; rw [e0]; rfl
  | ⟨1, _⟩ => show win0_4.index t (1 : Fin 2) * 128 + 1 * q.val = q.val; rw [e1]; omega

/-- What point `t` stores at `(p, q)` of its block is the function's entry at row `5000·t + p`, column `q`. -/
theorem hiddenPoint (c : Dev nD) (t : Fin cfg0.N) (p : Fin 5000) (q : Fin 128) (r : Fin 100000)
    (hr : r.val = 5000 * t.val + p.val) :
    k0_pay1 (F := Ideal) (iblk0 V c 0 t) (iblk0 V c 1 t) (iblk0 V c 2 t) (iblk0 V c 3 t) (iblk0 V c 4 t) (ix2 p q)
      = hiddenOf V c (ix2 r q) := by
  refine (hiddenBlock_apply (iblk0 V c 0 t) (iblk0 V c 1 t) (iblk0 V c 2 t) (iblk0 V c 3 t) (iblk0 V c 4 t) p q).trans ?_
  unfold hiddenOf
  rw [Cert.Sage.hidden_ix2]
  unfold Cert.Sage.cell
  rw [Cert.Sage.colVec_ix1, Cert.Sage.rowVec_ix1, invBlock0_apply V c t p r hr, biasBlock0_apply V c t q]
  simp only [aggBlock0_apply V c t p _ r hr, featBlock0_apply V c t p _ r hr, weightBlock0_apply V c t _ q]

/-- WHAT POINT `t` WRITES BACK is block `t` of the function. -/
theorem hiddenFlushed (c : Dev nD) (t : Fin cfg0.N) :
    (dat0 V c).flushed 5 t = ((cfg0.win 5).blk t).view.read (Elt Ideal) (hiddenOf V c) := by
  show (cfg0.win 5).cut (grid0.coords t) ((dat0 V c).after 5 t) = _
  rw [after0_5]
  unfold out0_5
  rw [View.canon_unit_zero zeroOffsets0]
  simp only [View.ld_unit_zero (S := S5000x128) zeroOffsets0, View.ld_unit_zero (S := S5000x1) zeroOffsets0,
    View.ld_unit_zero (S := S128x128) zeroOffsets0, View.ld_unit_zero (S := S1x128) zeroOffsets0]
  obtain ⟨-, -, -, -, -, -, -, -, -, -, e0, e1⟩ := blockIndex0 t
  funext j
  show k0_pay1 (F := Ideal) (iblk0 V c 0 t) (iblk0 V c 1 t) (iblk0 V c 2 t) (iblk0 V c 3 t) (iblk0 V c 4 t) j
    = hiddenOf V c (((cfg0.win 5).blk t).view.emb j)
  have hj0 : (j 0).val < 5000 := (j 0).isLt
  have hj1 : (j 1).val < 128 := (j 1).isLt
  have hN : t.val < 20 := lt_of_lt_of_eq t.isLt (show cfg0.N = 20 from N_0)
  have hemb : ((cfg0.win 5).blk t).view.emb j = ix2 (⟨5000 * t.val + (j 0).val, by omega⟩ : Fin 100000) (⟨(j 1).val, hj1⟩ : Fin 128) := by
    funext a; apply Fin.ext
    match a with
    | ⟨0, _⟩ => show win0_5.index t (0 : Fin 2) * 5000 + 1 * (j 0).val = 5000 * t.val + (j 0).val; rw [e0]; omega
    | ⟨1, _⟩ => show win0_5.index t (1 : Fin 2) * 128 + 1 * (j 1).val = (j 1).val; rw [e1]; omega
  have hj : (j : S5000x128.Idx) = ix2 (⟨(j 0).val, hj0⟩ : Fin 5000) (⟨(j 1).val, hj1⟩ : Fin 128) := eq_ix2 (n0 := 5000) (n1 := 128) j
  rw [hemb]
  exact (congrArg (k0_pay1 (F := Ideal) (iblk0 V c 0 t) (iblk0 V c 1 t) (iblk0 V c 2 t) (iblk0 V c 3 t) (iblk0 V c 4 t)) hj).trans
    (hiddenPoint V c t ⟨(j 0).val, hj0⟩ ⟨(j 1).val, hj1⟩ _ rfl)

/-- An index of the array is in point `t`'s block iff each coordinate is in the block's range on its axis. -/
theorem mem_block0 (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v21).slice (win0_5.rect t)).set ↔ _
  rw [View.set_slice_whole, Rect.mem_set_unit]
  exact Iff.rfl

/-- Every row is in some point's block: row `r` in the block of point `r / 5000`. -/
theorem covered0 (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hlt : (i 0).val / 5000 < cfg0.N := by rw [show cfg0.N = 20 from N_0]; omega
  refine ⟨⟨(i 0).val / 5000, hlt⟩, flush0_5 _, ?_⟩
  rw [mem_block0]
  obtain ⟨-, -, -, -, -, -, -, -, -, -, e0, e1⟩ := blockIndex0 ⟨(i 0).val / 5000, hlt⟩
  intro a
  match a with
  | ⟨0, _⟩ =>
    show win0_5.index ⟨(i 0).val / 5000, hlt⟩ (0 : Fin 2) * 5000 ≤ (i 0).val ∧ (i 0).val < win0_5.index ⟨(i 0).val / 5000, hlt⟩ (0 : Fin 2) * 5000 + 5000
    rw [e0]
    show (i 0).val / 5000 * 5000 ≤ (i 0).val ∧ (i 0).val < (i 0).val / 5000 * 5000 + 5000
    omega
  | ⟨1, _⟩ =>
    show win0_5.index ⟨(i 0).val / 5000, hlt⟩ (1 : Fin 2) * 128 ≤ (i 1).val ∧ (i 1).val < win0_5.index ⟨(i 0).val / 5000, hlt⟩ (1 : Fin 2) * 128 + 128
    rw [e1]
    omega

/-- THE RESULT ARRAY after the call holds the function of the arrays as the call found them. -/
theorem hiddenArray (c : Dev nD) : (dat0 V c).arrAt 5 cfg0.N = hiddenOf V c :=
  (dat0 V c).arrAt_eq_of_cover 5 (hiddenOf V c) (fun t _ => hiddenFlushed V c t) (covered0)

end Cert.KernelIdeal.SageValue

end
-- ==== Proof.OutputArray.lean ====
/-
  The second call's result array: the output layer of the arrays the call finds.

  The grid has 20 points; point `t` works on rows `5000·t … 5000·t + 4999`.  Its three row-blocked inputs (the neighbour
  sums, the node features, the one-column normalizer) are those rows of their arrays, the weight matrix and the one-row
  bias are taken whole at every point, and the block it writes back is those rows of the result.  So block `t` of what is
  written is block `t` of ONE function of the arrays as the call finds them — the layer entry, not clamped —, the 20 blocks cover
  every row, and the result array ends holding that function.  Everything is stated at arbitrary entry contents `V`.
-/
import proofs.«158828_j6296422056697_1_alg».proof.Proof.Gen.KernelIdeal.Frame
import proofs.«158828_j6296422056697_1_alg».proof.Proof.KernelPayload
import proofs.«158828_j6296422056697_1_alg».proof.Proof.LayerSpec
import Idealize.ShloMosaic.Lib.Pipeline.Value

set_option maxRecDepth 16384

noncomputable section

namespace Cert.KernelIdeal.SageValue

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zeroOffsets1 : (![0, 0] : Fin 2 → Nat) = fun _ => 0 := funext fun a => by fin_cases a <;> rfl

/-- The printed index maps over the grid: a row-blocked window's block index is `(t, 0)`, a whole window's `(0, 0)`. -/
theorem blockIndex1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The function the result array ends holding, of the arrays as the call finds them. -/
def outputOf (c : Dev nD) : S100000x64.Idx → EReal :=
  Cert.Sage.output (V c main_v31) (V c main_v21) (Cert.Sage.colVec (V c main_v8)) (V c main_arg3) (Cert.Sage.rowVec (V c main_v10))

/-- Row `p` of point `t`'s block of the neighbour sums is row `5000·t + p` of the array. -/
theorem aggBlock1_apply (c : Dev nD) (t : Fin cfg1.N) (p : Fin 5000) (k : Fin 128) (r : Fin 100000)
    (hr : r.val = 5000 * t.val + p.val) :
    (iblk1 V c 0 t : Vec Ideal S5000x128 .f32) (ix2 p k) = (V c main_v31 : S100000x128.Idx → EReal) (ix2 r k) := by
  obtain ⟨e0, e1, -⟩ := blockIndex1 t
  unfold iblk1
  rw [View.read_apply]
  show (V c main_v31 : S100000x128.Idx → EReal) _ = (V c main_v31 : S100000x128.Idx → EReal) _
  refine congrArg (V c main_v31 : S100000x128.Idx → EReal) (funext fun a => Fin.ext ?_)
  match a with
  | ⟨0, _⟩ => show win1_0.index t (0 : Fin 2) * 5000 + 1 * p.val = r.val; rw [e0, hr]; omega
  | ⟨1, _⟩ => show win1_0.index t (1 : Fin 2) * 128 + 1 * k.val = k.val; rw [e1]; omega

/-- The same for the node features. -/
theorem featBlock1_apply (c : Dev nD) (t : Fin cfg1.N) (p : Fin 5000) (k : Fin 128) (r : Fin 100000)
    (hr : r.val = 5000 * t.val + p.val) :
    (iblk1 V c 1 t : Vec Ideal S5000x128 .f32) (ix2 p k) = (V c main_v21 : S100000x128.Idx → EReal) (ix2 r k) := by
  obtain ⟨-, -, e0, e1, -⟩ := blockIndex1 t
  unfold iblk1
  rw [View.read_apply]
  show (V c main_v21 : S100000x128.Idx → EReal) _ = (V c main_v21 : S100000x128.Idx → EReal) _
  refine congrArg (V c main_v21 : S100000x128.Idx → EReal) (funext fun a => Fin.ext ?_)
  match a with
  | ⟨0, _⟩ => show win1_1.index t (0 : Fin 2) * 5000 + 1 * p.val = r.val; rw [e0, hr]; omega
  | ⟨1, _⟩ => show win1_1.index t (1 : Fin 2) * 128 + 1 * k.val = k.val; rw [e1]; omega

/-- The same for the one-column normalizer. -/
theorem invBlock1_apply (c : Dev nD) (t : Fin cfg1.N) (p : Fin 5000) (r : Fin 100000)
    (hr : r.val = 5000 * t.val + p.val) :
    (iblk1 V c 2 t : Vec Ideal S5000x1 .f32) (ix2 p (0 : Fin 1)) = (V c main_v8 : S100000x1.Idx → EReal) (ix2 r (0 : Fin 1)) := by
  obtain ⟨-, -, -, -, e0, e1, -⟩ := blockIndex1 t
  unfold iblk1
  rw [View.read_apply]
  show (V c main_v8 : S100000x1.Idx → EReal) _ = (V c main_v8 : S100000x1.Idx → EReal) _
  refine congrArg (V c main_v8 : S100000x1.Idx → EReal) (funext fun a => Fin.ext ?_)
  match a with
  | ⟨0, _⟩ => show win1_2.index t (0 : Fin 2) * 5000 + 1 * p.val = r.val; rw [e0, hr]; omega
  | ⟨1, _⟩ => show win1_2.index t (1 : Fin 2) * 1 + 1 * (0 : Fin 1).val = (0 : Fin 1).val; rw [e1]; rfl

/-- The weight matrix's block is the whole matrix at every point. -/
theorem weightBlock1_apply (c : Dev nD) (t : Fin cfg1.N) (k : Fin 128) (q : Fin 64) :
    (iblk1 V c 3 t : Vec Ideal S128x64 .f32) (ix2 k q) = (V c main_arg3 : S128x64.Idx → EReal) (ix2 k q) := by
  obtain ⟨-, -, -, -, -, -, e0, e1, -⟩ := blockIndex1 t
  unfold iblk1
  rw [View.read_apply]
  show (V c main_arg3 : S128x64.Idx → EReal) _ = (V c main_arg3 : S128x64.Idx → EReal) _
  refine congrArg (V c main_arg3 : S128x64.Idx → EReal) (funext fun a => Fin.ext ?_)
  match a with
  | ⟨0, _⟩ => show win1_3.index t (0 : Fin 2) * 128 + 1 * k.val = k.val; rw [e0]; omega
  | ⟨1, _⟩ => show win1_3.index t (1 : Fin 2) * 64 + 1 * q.val = q.val; rw [e1]; omega

/-- The one-row bias's block is the whole row at every point. -/
theorem biasBlock1_apply (c : Dev nD) (t : Fin cfg1.N) (q : Fin 64) :
    (iblk1 V c 4 t : Vec Ideal S1x64 .f32) (ix2 (0 : Fin 1) q) = (V c main_v10 : S1x64.Idx → EReal) (ix2 (0 : Fin 1) q) := by
  obtain ⟨-, -, -, -, -, -, -, -, e0, e1, -⟩ := blockIndex1 t
  unfold iblk1
  rw [View.read_apply]
  show (V c main_v10 : S1x64.Idx → EReal) _ = (V c main_v10 : S1x64.Idx → EReal) _
  refine congrArg (V c main_v10 : S1x64.Idx → EReal) (funext fun a => Fin.ext ?_)
  match a with
  | ⟨0, _⟩ => show win1_4.index t (0 : Fin 2) * 1 + 1 * (0 : Fin 1).val = (0 : Fin 1).val; rw [e0]; rfl
  | ⟨1, _⟩ => show win1_4.index t (1 : Fin 2) * 64 + 1 * q.val = q.val; rw [e1]; omega

/-- What point `t` stores at `(p, q)` of its block is the function's entry at row `5000·t + p`, column `q`. -/
theorem outputPoint (c : Dev nD) (t : Fin cfg1.N) (p : Fin 5000) (q : Fin 64) (r : Fin 100000)
    (hr : r.val = 5000 * t.val + p.val) :
    k1_pay1 (F := Ideal) (iblk1 V c 0 t) (iblk1 V c 1 t) (iblk1 V c 2 t) (iblk1 V c 3 t) (iblk1 V c 4 t) (ix2 p q)
      = outputOf V c (ix2 r q) := by
  refine (outputBlock_apply (iblk1 V c 0 t) (iblk1 V c 1 t) (iblk1 V c 2 t) (iblk1 V c 3 t) (iblk1 V c 4 t) p q).trans ?_
  unfold outputOf
  rw [Cert.Sage.output_ix2]
  unfold Cert.Sage.cell
  rw [Cert.Sage.colVec_ix1, Cert.Sage.rowVec_ix1, invBlock1_apply V c t p r hr, biasBlock1_apply V c t q]
  simp only [aggBlock1_apply V c t p _ r hr, featBlock1_apply V c t p _ r hr, weightBlock1_apply V c t _ q]

/-- WHAT POINT `t` WRITES BACK is block `t` of the function. -/
theorem outputFlushed (c : Dev nD) (t : Fin cfg1.N) :
    (dat1 V c).flushed 5 t = ((cfg1.win 5).blk t).view.read (Elt Ideal) (outputOf V c) := by
  show (cfg1.win 5).cut (grid1.coords t) ((dat1 V c).after 5 t) = _
  rw [after1_5]
  unfold out1_5
  rw [View.canon_unit_zero zeroOffsets1]
  simp only [View.ld_unit_zero (S := S5000x128) zeroOffsets1, View.ld_unit_zero (S := S5000x1) zeroOffsets1,
    View.ld_unit_zero (S := S128x64) zeroOffsets1, View.ld_unit_zero (S := S1x64) zeroOffsets1]
  obtain ⟨-, -, -, -, -, -, -, -, -, -, e0, e1⟩ := blockIndex1 t
  funext j
  show k1_pay1 (F := Ideal) (iblk1 V c 0 t) (iblk1 V c 1 t) (iblk1 V c 2 t) (iblk1 V c 3 t) (iblk1 V c 4 t) j
    = outputOf V c (((cfg1.win 5).blk t).view.emb j)
  have hj0 : (j 0).val < 5000 := (j 0).isLt
  have hj1 : (j 1).val < 64 := (j 1).isLt
  have hN : t.val < 20 := lt_of_lt_of_eq t.isLt (show cfg1.N = 20 from N_1)
  have hemb : ((cfg1.win 5).blk t).view.emb j = ix2 (⟨5000 * t.val + (j 0).val, by omega⟩ : Fin 100000) (⟨(j 1).val, hj1⟩ : Fin 64) := by
    funext a; apply Fin.ext
    match a with
    | ⟨0, _⟩ => show win1_5.index t (0 : Fin 2) * 5000 + 1 * (j 0).val = 5000 * t.val + (j 0).val; rw [e0]; omega
    | ⟨1, _⟩ => show win1_5.index t (1 : Fin 2) * 64 + 1 * (j 1).val = (j 1).val; rw [e1]; omega
  have hj : (j : S5000x64.Idx) = ix2 (⟨(j 0).val, hj0⟩ : Fin 5000) (⟨(j 1).val, hj1⟩ : Fin 64) := eq_ix2 (n0 := 5000) (n1 := 64) j
  rw [hemb]
  exact (congrArg (k1_pay1 (F := Ideal) (iblk1 V c 0 t) (iblk1 V c 1 t) (iblk1 V c 2 t) (iblk1 V c 3 t) (iblk1 V c 4 t)) hj).trans
    (outputPoint V c t ⟨(j 0).val, hj0⟩ ⟨(j 1).val, hj1⟩ _ rfl)

/-- An index of the array is in point `t`'s block iff each coordinate is in the block's range on its axis. -/
theorem mem_block1 (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v32).slice (win1_5.rect t)).set ↔ _
  rw [View.set_slice_whole, Rect.mem_set_unit]
  exact Iff.rfl

/-- Every row is in some point's block: row `r` in the block of point `r / 5000`. -/
theorem covered1 (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  have hlt : (i 0).val / 5000 < cfg1.N := by rw [show cfg1.N = 20 from N_1]; omega
  refine ⟨⟨(i 0).val / 5000, hlt⟩, flush1_5 _, ?_⟩
  rw [mem_block1]
  obtain ⟨-, -, -, -, -, -, -, -, -, -, e0, e1⟩ := blockIndex1 ⟨(i 0).val / 5000, hlt⟩
  intro a
  match a with
  | ⟨0, _⟩ =>
    show win1_5.index ⟨(i 0).val / 5000, hlt⟩ (0 : Fin 2) * 5000 ≤ (i 0).val ∧ (i 0).val < win1_5.index ⟨(i 0).val / 5000, hlt⟩ (0 : Fin 2) * 5000 + 5000
    rw [e0]
    show (i 0).val / 5000 * 5000 ≤ (i 0).val ∧ (i 0).val < (i 0).val / 5000 * 5000 + 5000
    omega
  | ⟨1, _⟩ =>
    show win1_5.index ⟨(i 0).val / 5000, hlt⟩ (1 : Fin 2) * 64 ≤ (i 1).val ∧ (i 1).val < win1_5.index ⟨(i 0).val / 5000, hlt⟩ (1 : Fin 2) * 64 + 64
    rw [e1]
    omega

/-- THE RESULT ARRAY after the call holds the function of the arrays as the call found them. -/
theorem outputArray (c : Dev nD) : (dat1 V c).arrAt 5 cfg1.N = outputOf V c :=
  (dat1 V c).arrAt_eq_of_cover 5 (outputOf V c) (fun t _ => outputFlushed V c t) (covered1)

end Cert.KernelIdeal.SageValue

end
-- ==== Proof.KernelGlue.lean ====
/-
  The host operations the kernel program applies around its two calls, as three functions.

  `nodeIndex` turns the edge sources into gather indices (a negative source is shifted up by the number of nodes, as
  array indexing does); `neighbourSum h` gathers the rows of `h` at the edge sources and scatter-adds them into a zero
  array at the edge targets (row `r` of the result is the sum of `h`'s rows over the edges that end at `r`);
  `normalizer` is one over the number of edges ending at a node plus one.  The value proof never opens them: the
  reference applies the same operations to the same arrays.
-/
import proofs.«158828_j6296422056697_1_alg».proof.Proof.Gen.KernelIdeal
import Idealize.ShloMosaic.PureOps.Ideal

noncomputable section

namespace Cert.KernelIdeal.SageValue

open Cert.KernelIdeal Cert.KernelIdeal.Gen Idealize.ShloMosaic

/-- The edge sources as gather indices, one per edge. -/
def nodeIndex (src : (⟨S1600000, .i32⟩ : BufTy).Contents (Elt Ideal)) : (⟨S1600000x1, .i32⟩ : BufTy).Contents (Elt Ideal) :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- The sum of `h`'s rows over each node's incoming edges. -/
def neighbourSum (h : (⟨S100000x128, .f32⟩ : BufTy).Contents (Elt Ideal)) (src dst : (⟨S1600000, .i32⟩ : BufTy).Contents (Elt Ideal)) :
    (⟨S100000x128, .f32⟩ : BufTy).Contents (Elt Ideal) :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (Host.gather gather_S100000x128_S1600000x1_S1600000x128_1_0_n_n_0_1_1128 h (nodeIndex src))

/-- One over each node's in-degree plus one. -/
def normalizer (dst : (⟨S1600000, .i32⟩ : BufTy).Contents (Elt Ideal)) : (⟨S100000, .f32⟩ : BufTy).Contents (Elt Ideal) :=
  Host.divf (broadcastInDim S100000 ![] bcast_S_S100000 (constant (F := Ideal) S_ .f32 0x3F800000#32))
    (addf
      (Host.scatterAdd scatter_S100000_S1600000x1_S1600000_n_0_0_1
        (broadcastInDim S100000 ![] bcast_S_S100000 (constant (F := Ideal) S_ .f32 0x00000000#32))
        (broadcastInDim S1600000x1 ![0] bcast_S1600000_S1600000x1_0 dst)
        (broadcastInDim S1600000 ![] bcast_S_S1600000 (constant (F := Ideal) S_ .f32 0x3F800000#32)))
      (broadcastInDim S100000 ![] bcast_S_S100000 (constant (F := Ideal) S_ .f32 0x3F800000#32)))

end Cert.KernelIdeal.SageValue

end
-- ==== Proof.ColumnVector.lean ====
/-
  A vector laid out as one column, or as one row, and read back.

  Casting a vector of `n` entries to the shape `[n, 1]` puts entry `r` at `(r, 0)`; casting it to `[1, n]` puts entry
  `q` at `(0, q)`: both keep the row-major position of every entry.  So the column (the row) read back as a vector is
  the vector.
-/
import proofs.«158828_j6296422056697_1_alg».proof.Proof.LayerSpec
import Idealize.ShloMosaic.Lib.Pipeline.Value
import Idealize.ShloMosaic.Lib.ValueLayout

noncomputable section

namespace Cert.Sage

open Idealize.ShloMosaic Idealize.ShloMosaic.ValueIdx

/-- A vector cast to one column and read back as a vector is the vector. -/
theorem colVec_shapeCast {n : ℕ} (v : (⟨1, ![n]⟩ : Shape).Idx → EReal) (h : (⟨1, ![n]⟩ : Shape).ShapeCasts ⟨2, ![n, 1]⟩) :
    colVec (shapeCast ⟨2, ![n, 1]⟩ v h) = v := by
  funext j
  obtain ⟨r, rfl⟩ : ∃ r : Fin n, j = ix1 r := ⟨j 0, eq_ix1 j⟩
  rw [colVec_ix1]
  exact shapeCast_apply v h (ix2 r (0 : Fin 1)) (ix1 r) (by
    rw [Shape.rowMajor_val_two, Shape.rowMajor_val_one]
    show r.val = r.val * 1 + 0
    omega)

/-- A vector cast to one row and read back as a vector is the vector. -/
theorem rowVec_shapeCast {n : ℕ} (v : (⟨1, ![n]⟩ : Shape).Idx → EReal) (h : (⟨1, ![n]⟩ : Shape).ShapeCasts ⟨2, ![1, n]⟩) :
    rowVec (shapeCast ⟨2, ![1, n]⟩ v h) = v := by
  funext j
  obtain ⟨q, rfl⟩ : ∃ q : Fin n, j = ix1 q := ⟨j 0, eq_ix1 j⟩
  rw [rowVec_ix1]
  exact shapeCast_a_1a_apply v h (0 : Fin 1) q

end Cert.Sage

end
-- ==== Proof.KernelValue.lean ====
/-
  The kernel program's result as a function of its arguments.

  The buffer contents are followed through the program's four segments.  Before the first call the host operations
  leave the features' neighbour sums, the normalizer cast to one column and the two biases cast to one row; the first
  call leaves the hidden layer of these in its result array and nothing else changed; the host operations between
  the calls leave the hidden layer's neighbour sums; the second call leaves the output layer in the result buffer.
  Put together: the result is the output layer of the hidden layer, each layer taken over its own neighbour sums and
  the one normalizer.
-/
import proofs.«158828_j6296422056697_1_alg».proof.Proof.KernelRun
import proofs.«158828_j6296422056697_1_alg».proof.Proof.HiddenArray
import proofs.«158828_j6296422056697_1_alg».proof.Proof.OutputArray
import proofs.«158828_j6296422056697_1_alg».proof.Proof.KernelGlue
import proofs.«158828_j6296422056697_1_alg».proof.Proof.ColumnVector
import Idealize.ShloMosaic.Lib.StableHlo.Run

set_option maxRecDepth 16384
set_option maxHeartbeats 1000000

noncomputable section

namespace Cert.KernelIdeal.SageValue

open Cert.KernelIdeal Cert.KernelIdeal.Gen
open Idealize.ShloMosaic Idealize.ShloMosaic.TcCoe Idealize.ShloMosaic.StableHlo Idealize.ShloMosaic.ValueIdx
open Idealize.SL Idealize.SL.Sem
open Idealize.ShloMosaic.Pipeline (Dat)

variable (m : (ℓ : Loc nD τ sig) → Buf (Elt Ideal) ℓ) (ρ : Dev nD → PrngReg)

/-! ## Before the first call -/

theorem before0_agg (c : Dev nD) :
    (V1 m ρ c main_v20 : (⟨S100000x128, .f32⟩ : BufTy).Contents (Elt Ideal))
      = neighbourSum (m ((c.tc : Thread nD τ).loc main_arg0)) (m ((c.tc : Thread nD τ).loc main_arg5)) (m ((c.tc : Thread nD τ).loc main_arg6)) := by
  show StableHlo.after hostOps0 (W0 m ρ c) (Proc.devRef .tc main_v20) = _
  after_results_simp
  all_goals rfl

theorem before0_inv (c : Dev nD) :
    (V1 m ρ c main_v8 : (⟨S100000x1, .f32⟩ : BufTy).Contents (Elt Ideal))
      = shapeCast S100000x1 (normalizer (m ((c.tc : Thread nD τ).loc main_arg6))) shapeCasts_S100000_S100000x1 := by
  show StableHlo.after hostOps0 (W0 m ρ c) (Proc.devRef .tc main_v8) = _
  after_results_simp
  all_goals rfl

theorem before0_bias1 (c : Dev nD) :
    (V1 m ρ c main_v9 : (⟨S1x128, .f32⟩ : BufTy).Contents (Elt Ideal)) = shapeCast S1x128 (m ((c.tc : Thread nD τ).loc main_arg2)) shapeCasts_S128_S1x128 := by
  show StableHlo.after hostOps0 (W0 m ρ c) (Proc.devRef .tc main_v9) = _
  after_results_simp
  all_goals rfl

theorem before0_bias2 (c : Dev nD) :
    (W1 m ρ c (Proc.devRef .tc main_v10) : (⟨S1x64, .f32⟩ : BufTy).Contents (Elt Ideal)) = shapeCast S1x64 (m ((c.tc : Thread nD τ).loc main_arg4)) shapeCasts_S64_S1x64 := by
  show StableHlo.after hostOps0 (W0 m ρ c) (Proc.devRef .tc main_v10) = _
  after_results_simp
  all_goals rfl

theorem before0_arg0 (c : Dev nD) : V1 m ρ c main_arg0 = (m ((c.tc : Thread nD τ).loc main_arg0)) := by
  show StableHlo.after hostOps0 (W0 m ρ c) (Proc.devRef .tc main_arg0) = _
  after_results_simp
  all_goals rfl

theorem before0_arg1 (c : Dev nD) : V1 m ρ c main_arg1 = (m ((c.tc : Thread nD τ).loc main_arg1)) := by
  show StableHlo.after hostOps0 (W0 m ρ c) (Proc.devRef .tc main_arg1) = _
  after_results_simp
  all_goals rfl

theorem before0_arg3 (c : Dev nD) : W1 m ρ c (Proc.devRef .tc main_arg3) = (m ((c.tc : Thread nD τ).loc main_arg3)) := by
  show StableHlo.after hostOps0 (W0 m ρ c) (Proc.devRef .tc main_arg3) = _
  after_results_simp
  all_goals rfl

theorem before0_arg5 (c : Dev nD) : W1 m ρ c (Proc.devRef .tc main_arg5) = (m ((c.tc : Thread nD τ).loc main_arg5)) := by
  show StableHlo.after hostOps0 (W0 m ρ c) (Proc.devRef .tc main_arg5) = _
  after_results_simp
  all_goals rfl

theorem before0_arg6 (c : Dev nD) : W1 m ρ c (Proc.devRef .tc main_arg6) = (m ((c.tc : Thread nD τ).loc main_arg6)) := by
  show StableHlo.after hostOps0 (W0 m ρ c) (Proc.devRef .tc main_arg6) = _
  after_results_simp
  all_goals rfl

/-- The hidden layer as a function of the arguments. -/
def hiddenLayer (c : Dev nD) : (⟨S100000x128, .f32⟩ : BufTy).Contents (Elt Ideal) :=
  Cert.Sage.hidden (neighbourSum (m ((c.tc : Thread nD τ).loc main_arg0)) (m ((c.tc : Thread nD τ).loc main_arg5)) (m ((c.tc : Thread nD τ).loc main_arg6))) (m ((c.tc : Thread nD τ).loc main_arg0))
    (normalizer (m ((c.tc : Thread nD τ).loc main_arg6))) (m ((c.tc : Thread nD τ).loc main_arg1)) (m ((c.tc : Thread nD τ).loc main_arg2))

/-! ## After the first call -/

theorem after0_hidden (c : Dev nD) : (W2 m ρ c (Proc.devRef .tc main_v21) : (⟨S100000x128, .f32⟩ : BufTy).Contents (Elt Ideal)) = hiddenLayer m c := by
  refine ((W2_arr m ρ c 5).trans (hiddenArray (V1 m ρ) c)).trans ?_
  unfold hiddenOf hiddenLayer
  rw [before0_agg, before0_arg0, before0_inv, before0_arg1, before0_bias1, Cert.Sage.colVec_shapeCast, Cert.Sage.rowVec_shapeCast]

theorem after0_inv (c : Dev nD) :
    (W2 m ρ c (Proc.devRef .tc main_v8) : (⟨S100000x1, .f32⟩ : BufTy).Contents (Elt Ideal))
      = shapeCast S100000x1 (normalizer (m ((c.tc : Thread nD τ).loc main_arg6))) shapeCasts_S100000_S100000x1 :=
  ((W2_arr m ρ c 2).trans (((dat0 (V1 m ρ) c).arrAt_in 2 rfl _).trans (A_eq0 (V1 m ρ) c 2))).trans (before0_inv m ρ c)

theorem after0_bias2 (c : Dev nD) :
    (W2 m ρ c (Proc.devRef .tc main_v10) : (⟨S1x64, .f32⟩ : BufTy).Contents (Elt Ideal)) = shapeCast S1x64 (m ((c.tc : Thread nD τ).loc main_arg4)) shapeCasts_S64_S1x64 :=
  (W2_of_ne m ρ c main_v10 (by decide)).trans (before0_bias2 m ρ c)

theorem after0_arg3 (c : Dev nD) : W2 m ρ c (Proc.devRef .tc main_arg3) = (m ((c.tc : Thread nD τ).loc main_arg3)) :=
  (W2_of_ne m ρ c main_arg3 (by decide)).trans (before0_arg3 m ρ c)

theorem after0_arg5 (c : Dev nD) : W2 m ρ c (Proc.devRef .tc main_arg5) = (m ((c.tc : Thread nD τ).loc main_arg5)) :=
  (W2_of_ne m ρ c main_arg5 (by decide)).trans (before0_arg5 m ρ c)

theorem after0_arg6 (c : Dev nD) : W2 m ρ c (Proc.devRef .tc main_arg6) = (m ((c.tc : Thread nD τ).loc main_arg6)) :=
  (W2_of_ne m ρ c main_arg6 (by decide)).trans (before0_arg6 m ρ c)

/-! ## Before the second call -/

theorem before1_agg (c : Dev nD) :
    (V3 m ρ c main_v31 : (⟨S100000x128, .f32⟩ : BufTy).Contents (Elt Ideal))
      = neighbourSum (hiddenLayer m c) (m ((c.tc : Thread nD τ).loc main_arg5)) (m ((c.tc : Thread nD τ).loc main_arg6)) := by
  have e : (V3 m ρ c main_v31 : (⟨S100000x128, .f32⟩ : BufTy).Contents (Elt Ideal))
      = neighbourSum (W2 m ρ c (Proc.devRef .tc main_v21)) (W2 m ρ c (Proc.devRef .tc main_arg5)) (W2 m ρ c (Proc.devRef .tc main_arg6)) := by
    show StableHlo.after hostOps1 (W2 m ρ c) (Proc.devRef .tc main_v31) = _
    after_results_simp
    all_goals rfl
  rw [e, after0_hidden, after0_arg5, after0_arg6]

theorem before1_hidden (c : Dev nD) : (V3 m ρ c main_v21 : (⟨S100000x128, .f32⟩ : BufTy).Contents (Elt Ideal)) = hiddenLayer m c := by
  have e : V3 m ρ c main_v21 = W2 m ρ c (Proc.devRef .tc main_v21) := by
    show StableHlo.after hostOps1 (W2 m ρ c) (Proc.devRef .tc main_v21) = _
    after_results_simp
    all_goals rfl
  rw [e, after0_hidden]

theorem before1_inv (c : Dev nD) :
    (V3 m ρ c main_v8 : (⟨S100000x1, .f32⟩ : BufTy).Contents (Elt Ideal))
      = shapeCast S100000x1 (normalizer (m ((c.tc : Thread nD τ).loc main_arg6))) shapeCasts_S100000_S100000x1 := by
  have e : V3 m ρ c main_v8 = W2 m ρ c (Proc.devRef .tc main_v8) := by
    show StableHlo.after hostOps1 (W2 m ρ c) (Proc.devRef .tc main_v8) = _
    after_results_simp
    all_goals rfl
  rw [e, after0_inv]

theorem before1_weight (c : Dev nD) : V3 m ρ c main_arg3 = (m ((c.tc : Thread nD τ).loc main_arg3)) := by
  have e : V3 m ρ c main_arg3 = W2 m ρ c (Proc.devRef .tc main_arg3) := by
    show StableHlo.after hostOps1 (W2 m ρ c) (Proc.devRef .tc main_arg3) = _
    after_results_simp
    all_goals rfl
  rw [e, after0_arg3]

theorem before1_bias (c : Dev nD) :
    (V3 m ρ c main_v10 : (⟨S1x64, .f32⟩ : BufTy).Contents (Elt Ideal)) = shapeCast S1x64 (m ((c.tc : Thread nD τ).loc main_arg4)) shapeCasts_S64_S1x64 := by
  have e : V3 m ρ c main_v10 = W2 m ρ c (Proc.devRef .tc main_v10) := by
    show StableHlo.after hostOps1 (W2 m ρ c) (Proc.devRef .tc main_v10) = _
    after_results_simp
    all_goals rfl
  rw [e, after0_bias2]

/-! ## After the second call -/

/-- The program's result as a function of the arguments: the output layer of the hidden layer. -/
def resultOf (c : Dev nD) : (⟨S100000x64, .f32⟩ : BufTy).Contents (Elt Ideal) :=
  Cert.Sage.output (neighbourSum (hiddenLayer m c) (m ((c.tc : Thread nD τ).loc main_arg5)) (m ((c.tc : Thread nD τ).loc main_arg6))) (hiddenLayer m c)
    (normalizer (m ((c.tc : Thread nD τ).loc main_arg6))) (m ((c.tc : Thread nD τ).loc main_arg3)) (m ((c.tc : Thread nD τ).loc main_arg4))

theorem result_value (c : Dev nD) : (W4 m ρ c (Proc.devRef .tc main_v32) : (⟨S100000x64, .f32⟩ : BufTy).Contents (Elt Ideal)) = resultOf m c := by
  refine ((W4_arr m ρ c 5).trans (outputArray (V3 m ρ) c)).trans ?_
  unfold outputOf resultOf
  rw [before1_agg, before1_hidden, before1_inv, before1_weight, before1_bias, Cert.Sage.colVec_shapeCast, Cert.Sage.rowVec_shapeCast]

/-- THE RUN, READ: every weakly fair execution of the kernel program terminates, nothing faulting, with the result
    buffer at the output layer of the hidden layer of the arguments, and the arguments as launched. -/
theorem run : θ_run defs (onTc (τ := τ) (main (F := Ideal))) ⟨m, fun _ => 0, ρ⟩ (fun r => ∀ c : Dev nD,
      r.2.mem ((c.tc : Thread nD τ).loc main_v32) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).1.trans (result_value m ρ c), (h c).2⟩) (run_result m ρ)

end Cert.KernelIdeal.SageValue

end
-- ==== Proof.ReferenceLayers.lean ====
/-
  The reference program's two layers are the layer specification.

  The reference forms `(agg + h) · inv` on the whole `[100000, 128]` array — the normalizer broadcast first to one
  column and then along the rows —, multiplies by the weight matrix with the host's matrix product (at the ideal
  values the plain sum over the shared axis), adds the bias broadcast down the rows and, for the hidden layer,
  clamps below at zero.  Read at an entry `(r, q)` this is `Σ_k ((agg (r, k) + h (r, k)) · inv r) · W (k, q) + b q`:
  the specification's `cell`.  The neighbour sums `agg` (a gather along the edge sources followed by a scatter-add
  along the edge targets) and the normalizer are not opened: they enter only as arrays.
-/
import proofs.«158828_j6296422056697_1_alg».proof.Proof.Gen.ReferenceIdeal.Read
import proofs.«158828_j6296422056697_1_alg».proof.Proof.LayerSpec

noncomputable section

namespace Cert.ReferenceIdeal.SageRef

open Cert.ReferenceIdeal Cert.ReferenceIdeal.Read Idealize.ShloMosaic Idealize.ShloMosaic.ValueIdx

/-- The hidden layer's stage: the clamped layer of the features' neighbour sums, the features, the normalizer, the
    first weight matrix and bias. -/
theorem hidden_stage (x0 : (⟨S100000x128, .f32⟩ : BufTy).Contents (Elt Ideal)) (x1 : (⟨S128x128, .f32⟩ : BufTy).Contents (Elt Ideal)) (x2 : (⟨S128, .f32⟩ : BufTy).Contents (Elt Ideal))
    (x5 x6 : (⟨S1600000, .i32⟩ : BufTy).Contents (Elt Ideal)) :
    val_main_v26 (F := Ideal) x0 x1 x2 x5 x6
      = Cert.Sage.hidden (val_main_v17 (F := Ideal) x0 x5 x6) x0 (val_main_v7 (F := Ideal) x6) x1 x2 := by
  funext i
  obtain ⟨r, q, rfl⟩ : ∃ (r : Fin 100000) (q : Fin 128), i = ix2 r q := ⟨i 0, i 1, eq_ix2 i⟩
  rw [Cert.Sage.hidden_ix2]
  unfold Cert.Sage.cell
  rw [val_main_v26_apply, val_main_v25_apply, val_main_v22_apply, val_main_v24_apply, val_main_v23_apply,
    val_main_call0_v0_apply, val_main_call0_cst_apply]
  have hb : idx_main_v23 (idx_main_v24 (ix2 r q)) = ix1 q := funext fun a => Fin.ext (by
    match a with | ⟨0, _⟩ => rfl)
  have hsum : ∀ k : Fin 128,
      val_main_v21 (F := Ideal) x0 x5 x6 (lidx_main_v22 (ix2 r q) k) * x1 (ridx_main_v22 (ix2 r q) k)
        = ((val_main_v17 (F := Ideal) x0 x5 x6 (ix2 r k) + x0 (ix2 r k)) * val_main_v7 (F := Ideal) x6 (ix1 r)) * x1 (ix2 k q) := fun k => by
    have hl : lidx_main_v22 (ix2 r q) k = ix2 r k := funext fun a => Fin.ext (by
      match a with | ⟨0, _⟩ => rfl | ⟨1, _⟩ => rfl)
    have hr : ridx_main_v22 (ix2 r q) k = ix2 k q := funext fun a => Fin.ext (by
      match a with | ⟨0, _⟩ => rfl | ⟨1, _⟩ => rfl)
    have hinv : idx_main_v19 (idx_main_v20 (ix2 r k)) = ix1 r := funext fun a => Fin.ext (by
      match a with | ⟨0, _⟩ => rfl)
    rw [hl, hr, val_main_v21_apply, val_main_v18_apply, val_main_v20_apply, val_main_v19_apply, hinv]
    generalize val_main_v17 (F := Ideal) x0 x5 x6 = A
    generalize val_main_v7 (F := Ideal) x6 = N
    rfl
  rw [Finset.sum_congr rfl fun k _ => hsum k, hb]
  generalize val_main_v17 (F := Ideal) x0 x5 x6 = A
  generalize val_main_v7 (F := Ideal) x6 = N
  rfl

/-- The result's stage: the layer, not clamped, of the hidden layer's neighbour sums, the hidden layer, the
    normalizer, the second weight matrix and bias. -/
theorem output_stage (x0 : (⟨S100000x128, .f32⟩ : BufTy).Contents (Elt Ideal)) (x1 : (⟨S128x128, .f32⟩ : BufTy).Contents (Elt Ideal)) (x2 : (⟨S128, .f32⟩ : BufTy).Contents (Elt Ideal))
    (x3 : (⟨S128x64, .f32⟩ : BufTy).Contents (Elt Ideal)) (x4 : (⟨S64, .f32⟩ : BufTy).Contents (Elt Ideal)) (x5 x6 : (⟨S1600000, .i32⟩ : BufTy).Contents (Elt Ideal)) :
    val_main_v44 (F := Ideal) x0 x1 x2 x3 x4 x5 x6
      = Cert.Sage.output (val_main_v36 (F := Ideal) x0 x1 x2 x5 x6) (val_main_v26 (F := Ideal) x0 x1 x2 x5 x6)
          (val_main_v7 (F := Ideal) x6) x3 x4 := by
  funext i
  obtain ⟨r, q, rfl⟩ : ∃ (r : Fin 100000) (q : Fin 64), i = ix2 r q := ⟨i 0, i 1, eq_ix2 i⟩
  rw [Cert.Sage.output_ix2]
  unfold Cert.Sage.cell
  rw [val_main_v44_apply, val_main_v41_apply, val_main_v43_apply, val_main_v42_apply]
  have hb : idx_main_v42 (idx_main_v43 (ix2 r q)) = ix1 q := funext fun a => Fin.ext (by
    match a with | ⟨0, _⟩ => rfl)
  have hsum : ∀ k : Fin 128,
      val_main_v40 (F := Ideal) x0 x1 x2 x5 x6 (lidx_main_v41 (ix2 r q) k) * x3 (ridx_main_v41 (ix2 r q) k)
        = ((val_main_v36 (F := Ideal) x0 x1 x2 x5 x6 (ix2 r k) + val_main_v26 (F := Ideal) x0 x1 x2 x5 x6 (ix2 r k))
            * val_main_v7 (F := Ideal) x6 (ix1 r)) * x3 (ix2 k q) := fun k => by
    have hl : lidx_main_v41 (ix2 r q) k = ix2 r k := funext fun a => Fin.ext (by
      match a with | ⟨0, _⟩ => rfl | ⟨1, _⟩ => rfl)
    have hr : ridx_main_v41 (ix2 r q) k = ix2 k q := funext fun a => Fin.ext (by
      match a with | ⟨0, _⟩ => rfl | ⟨1, _⟩ => rfl)
    have hinv : idx_main_v38 (idx_main_v39 (ix2 r k)) = ix1 r := funext fun a => Fin.ext (by
      match a with | ⟨0, _⟩ => rfl)
    rw [hl, hr, val_main_v40_apply, val_main_v37_apply, val_main_v39_apply, val_main_v38_apply, hinv]
    generalize val_main_v36 (F := Ideal) x0 x1 x2 x5 x6 = A
    generalize val_main_v26 (F := Ideal) x0 x1 x2 x5 x6 = H
    generalize val_main_v7 (F := Ideal) x6 = N
    rfl
  rw [Finset.sum_congr rfl fun k _ => hsum k, hb]
  generalize val_main_v36 (F := Ideal) x0 x1 x2 x5 x6 = A
  generalize val_main_v26 (F := Ideal) x0 x1 x2 x5 x6 = H
  generalize val_main_v7 (F := Ideal) x6 = N
  rfl

end Cert.ReferenceIdeal.SageRef

end
-- ==== Proof.Bridge.lean ====
/-
  The two programs compute one function.

  The reference applies to its arguments the same host operations as the kernel program — the gather along the edge
  sources, the scatter-add along the edge targets, the in-degree normalizer — so its neighbour sums and its
  normalizer are the kernel program's, term for term.  With the reference's two layers read as the layer
  specification, its result is the output layer of the hidden layer over those same arrays: the function the kernel
  program's result buffer ends holding.
-/
import proofs.«158828_j6296422056697_1_alg».proof.Proof.KernelValue
import proofs.«158828_j6296422056697_1_alg».proof.Proof.ReferenceLayers

noncomputable section

namespace Cert.Proof.SageBridge

open Idealize.ShloMosaic Idealize.ShloMosaic.TcCoe Idealize.SL.Sem
open Cert.KernelIdeal.SageValue Cert.ReferenceIdeal.Read Cert.ReferenceIdeal.SageRef

/-- The reference's neighbour sums of the features are the kernel program's. -/
theorem featureSums_eq (x0 : (⟨Cert.KernelIdeal.S100000x128, .f32⟩ : BufTy).Contents (Elt Ideal)) (x5 x6 : (⟨Cert.KernelIdeal.S1600000, .i32⟩ : BufTy).Contents (Elt Ideal)) :
    val_main_v17 (F := Ideal) x0 x5 x6 = neighbourSum x0 x5 x6 := rfl

/-- The reference's neighbour sums of its hidden layer are the kernel program's of the same array. -/
theorem hiddenSums_eq (x0 : (⟨Cert.KernelIdeal.S100000x128, .f32⟩ : BufTy).Contents (Elt Ideal)) (x1 : (⟨Cert.KernelIdeal.S128x128, .f32⟩ : BufTy).Contents (Elt Ideal)) (x2 : (⟨Cert.KernelIdeal.S128, .f32⟩ : BufTy).Contents (Elt Ideal))
    (x5 x6 : (⟨Cert.KernelIdeal.S1600000, .i32⟩ : BufTy).Contents (Elt Ideal)) :
    val_main_v36 (F := Ideal) x0 x1 x2 x5 x6 = neighbourSum (val_main_v26 (F := Ideal) x0 x1 x2 x5 x6) x5 x6 := rfl

/-- The reference's normalizer is the kernel program's. -/
theorem normalizer_eq (x6 : (⟨Cert.KernelIdeal.S1600000, .i32⟩ : BufTy).Contents (Elt Ideal)) : val_main_v7 (F := Ideal) x6 = normalizer x6 := rfl

/-- The reference's result, at the kernel program's arguments, is the kernel program's result. -/
theorem reference_eq_kernel (m : (ℓ : Loc Cert.KernelIdeal.nD Cert.KernelIdeal.τ Cert.KernelIdeal.sig) → Buf (Elt Ideal) ℓ)
    (c : Dev Cert.KernelIdeal.nD) :
    val_main_v44 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
      = resultOf m c := by
  rw [output_stage, hiddenSums_eq, hidden_stage, featureSums_eq, normalizer_eq]
  rfl

end Cert.Proof.SageBridge

end
-- ==== Proof.lean ====
/-
  Two layers of a graph convolution computed by two row-blocked kernel calls, against the same two layers computed on
  whole arrays.

  Both programs first form, with the same host operations, the in-degree normalizer `inv` and the neighbour sums
  `agg` of the node features (a gather along the edge sources, a scatter-add along the edge targets).  A layer sends
  features `h` to `((agg + h) · inv) · W + b`, the hidden layer clamped below at zero; the second layer takes the
  neighbour sums of the hidden layer.  The kernel program computes each layer 5000 rows at a time, with the product
  into a zero accumulator, the normalizer as one column and the bias as one row; the reference computes it on the
  whole `[100000, 128]` array with the host's matrix product and broadcasts.  Entry by entry both are
      Σ_k ((agg (r, k) + h (r, k)) · inv r) · W (k, q) + b q
  over the extended reals, the sum in the same order, so the two results agree on every input: no finiteness of the
  inputs is used.  The three frames are the generated frame proofs (the reference's is its generated run with the
  result dropped); the idealization rewrote nothing, so `preserves` is trivial.
-/
import proofs.«158828_j6296422056697_1_alg».proof.Defs
import proofs.«158828_j6296422056697_1_alg».proof.Proof.Gen.Kernel
import proofs.«158828_j6296422056697_1_alg».proof.Proof.Gen.Kernel.Skeleton
import proofs.«158828_j6296422056697_1_alg».proof.Proof.Gen.Kernel.Launch
import proofs.«158828_j6296422056697_1_alg».proof.Proof.Gen.Kernel.Points
import proofs.«158828_j6296422056697_1_alg».proof.Proof.Gen.Kernel.Frame
import proofs.«158828_j6296422056697_1_alg».proof.Proof.Gen.KernelIdeal
import proofs.«158828_j6296422056697_1_alg».proof.Proof.Gen.KernelIdeal.Skeleton
import proofs.«158828_j6296422056697_1_alg».proof.Proof.Gen.KernelIdeal.Launch
import proofs.«158828_j6296422056697_1_alg».proof.Proof.Gen.KernelIdeal.Points
import proofs.«158828_j6296422056697_1_alg».proof.Proof.Gen.KernelIdeal.Frame
import proofs.«158828_j6296422056697_1_alg».proof.Proof.Gen.ReferenceIdeal
import proofs.«158828_j6296422056697_1_alg».proof.Proof.Gen.Pre_finite_inputs
import proofs.«158828_j6296422056697_1_alg».proof.Proof.Gen.ReferenceIdeal.Run
import proofs.«158828_j6296422056697_1_alg».proof.Proof.Gen.ReferenceIdeal.Read
import proofs.«158828_j6296422056697_1_alg».proof.Proof.Bridge
import Idealize.ShloMosaic.Adequacy
import Idealize.ShloMosaic.Init

noncomputable section

namespace Cert.Proof

open Idealize.ShloMosaic Idealize.SL.Sem

namespace SageClaims

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both programs run, and both results are the output layer of the hidden
    layer of those arguments. -/
theorem algebraic : Cert.algebraic_KernelIdeal_ReferenceIdeal := by
  intro m ρ m' ρ' _ hagree
  refine ⟨fun c => Cert.KernelIdeal.SageValue.resultOf m c, Cert.KernelIdeal.SageValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v44_eq, a0, a1, a2, a3, a4, a5, a6]
  exact Cert.Proof.SageBridge.reference_eq_kernel m c

end SageClaims

theorem claim : Cert.Claim :=
  ⟨Cert.Kernel.Gen.facts, Cert.KernelIdeal.Gen.facts, Cert.ReferenceIdeal.Gen.facts, Cert.Pre_finite_inputs.Gen.facts,
    SageClaims.frame_kernel, SageClaims.frame_kernelIdeal, SageClaims.frame_referenceIdeal, trivial, SageClaims.algebraic⟩

end Cert.Proof

end
